-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x1024 : Shape := ⟨3, ![64, 1024, 1024]⟩
abbrev S_ : Shape := ⟨0, ![]⟩

class Facts : Prop where
  bcast_S_S64x1024x1024 : S_.BroadcastsInDim S64x1024x1024 (![] : Fin 0 → Fin S64x1024x1024.rank)
  reducesTo_S64x1024x1024_S_d0_1_2 : S64x1024x1024.ReducesTo [0, 1, 2] S_
  h_S_ : 0 < S_.numel

variable [Facts]

def fn {F : FTy → Type} [FloatOps F] (main_arg0 : FVec F S64x1024x1024 .f32) : IVec S_ 1 :=
  let main_v0 : FVec F S64x1024x1024 .f32 := Host.absf main_arg0
  let main_cst : FVec F S_ .f32 := constant S_ .f32 0x7F800000#32
  let main_v1 : FVec F S64x1024x1024 .f32 := broadcastInDim S64x1024x1024 ![] bcast_S_S64x1024x1024 main_cst
  let main_v2 : IVec S64x1024x1024 1 := cmpf .olt main_v0 main_v1
  let main_c : IVec S_ 1 := constantI S_ 1 1#1
  let main_v3 : IVec S_ 1 := (fun x v => Host.reduce IntOp.andi x v reducesTo_S64x1024x1024_S_d0_1_2 h_S_) main_v2 main_c
  main_v3
-- ==== Kernel.lean ====
abbrev S64x1024x1024 : Shape := ⟨3, ![64, 1024, 1024]⟩
abbrev S16x128 : Shape := ⟨2, ![16, 128]⟩
abbrev S1x1024x1024 : Shape := ⟨3, ![1, 1024, 1024]⟩
abbrev S8x128 : Shape := ⟨2, ![8, 128]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S1024x1 : Shape := ⟨2, ![1024, 1]⟩
abbrev S_ : Shape := ⟨0, ![]⟩

abbrev nBuf : Space → Nat
  | .hbm => 9
  | .vmem => 4
  | .smem => 0
  | _ => 0

abbrev bufTy : (tb : Table) → Fin (tcTables nBuf tb) → BufTy
  | .hbm, ⟨0, _⟩ => ⟨S64x1024x1024, .f32⟩
  | .hbm, ⟨1, _⟩ => ⟨S16x128, .f32⟩
  | .hbm, ⟨2, _⟩ => ⟨S1x1, .f32⟩
  | .hbm, ⟨3, _⟩ => ⟨S_, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1x1024x1024, .f32⟩
  | .local _ .vmem, ⟨1, _⟩ => ⟨S1x1024x1024, .f32⟩
  | .local _ .vmem, ⟨2, _⟩ => ⟨S8x128, .f32⟩
  | .local _ .vmem, ⟨3, _⟩ => ⟨S8x128, .f32⟩
  | _, _ => ⟨S64x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x128_S8x128_0_0 : ∀ a, (![0, 0] : Fin 2 → Nat) a + S8x128.size a ≤ S8x128.size a
  h_S8x128 : 0 < S8x128.numel
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S1024x1024_S1024 : S1024x1024.Reduces [0] S1024
  shapeCasts_S1024_S1x1024 : S1024.ShapeCasts S1x1024
  reduces_S1x1024_S1 : S1x1024.Reduces [1] S1
  shapeCasts_S1_S1x1 : S1.ShapeCasts S1x1
  reduces_S1024x1024_S1024_2 : S1024x1024.Reduces [1] S1024
  shapeCasts_S1024_S1024x1 : S1024.ShapeCasts S1024x1
  reduces_S1024x1_S1 : S1024x1.Reduces [0] S1
  iota_S8x128_d0_w32 : S8x128.Iotas .tc 32 [0]
  iota_S8x128_d1_w32 : S8x128.Iotas .tc 32 [1]
  shapeCasts_S1x1_S1x1 : S1x1.ShapeCasts S1x1
  broadcasts_S1x1_S8x128 : S1x1.Broadcasts S8x128
  shapeCasts_S8x128_S8x128 : S8x128.ShapeCasts S8x128
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S64x1024x1024.size a
  hwx0_0 : ∀ i : grid0.Coords, EltTy.bits .f32 = 32 ∨ (Rect.block (s := S64x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S16x128.size a
  hwx0_1 : ∀ i : grid0.Coords, EltTy.bits .f32 = 32 ∨ (Rect.block (s := S16x128) S8x128.size (cc0_transform_1 i) (hinb0_1 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x1024 : Shape := ⟨3, ![64, 1024, 1024]⟩
abbrev S1024x1024 : Shape := ⟨2, ![1024, 1024]⟩
abbrev S_ : Shape := ⟨0, ![]⟩
abbrev S64 : Shape := ⟨1, ![64]⟩

abbrev nBuf : Space → Nat
  | .hbm => 21
  | .vmem => 0
  | .smem => 0
  | _ => 0

abbrev bufTy : (tb : Table) → Fin (tcTables nBuf tb) → BufTy
  | .hbm, ⟨0, _⟩ => ⟨S64x1024x1024, .f32⟩
  | .hbm, ⟨1, _⟩ => ⟨S64x1024x1024, .f32⟩
  | .hbm, ⟨2, _⟩ => ⟨S1024x1024, .i32⟩
  | .hbm, ⟨3, _⟩ => ⟨S1024x1024, .i32⟩
  | .hbm, ⟨4, _⟩ => ⟨S_, .i32⟩
  | .hbm, ⟨5, _⟩ => ⟨S1024x1024, .i32⟩
  | .hbm, ⟨6, _⟩ => ⟨S1024x1024, .i32⟩
  | .hbm, ⟨7, _⟩ => ⟨S1024x1024, .i1⟩
  | .hbm, ⟨8, _⟩ => ⟨S_, .f32⟩
  | .hbm, ⟨9, _⟩ => ⟨S64x1024x1024, .f32⟩
  | .hbm, ⟨10, _⟩ => ⟨S64x1024x1024, .i1⟩
  | .hbm, ⟨11, _⟩ => ⟨S64x1024x1024, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | _, _ => ⟨S64x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_c : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst : Ref sig .tc := ⟨.hbm, 8, rfl⟩
abbrev main_call0_v5 : Ref sig .tc := ⟨.hbm, 9, rfl⟩
abbrev main_call0_call0_v0 : Ref sig .tc := ⟨.hbm, 10, rfl⟩
abbrev main_call0_v6 : Ref sig .tc := ⟨.hbm, 11, rfl⟩
abbrev main_call0_cst_0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S_S64x1024x1024 : S_.BroadcastsInDim S64x1024x1024 (![] : Fin 0 → Fin S64x1024x1024.rank)
  bcast_S1024x1024_S64x1024x1024_1_2 : S1024x1024.BroadcastsInDim S64x1024x1024 (![1, 2] : Fin 2 → Fin S64x1024x1024.rank)
  reducesTo_S64x1024x1024_S64_d1_2 : S64x1024x1024.ReducesTo [1, 2] S64
  h_S_ : 0 < S_.numel
  reducesTo_S64_S_d0 : S64.ReducesTo [0] S_
  reducesTo_S64x1024x1024_S_d0_1_2 : S64x1024x1024.ReducesTo [0, 1, 2] S_
  dot_S64x1024x1024_S64x1024x1024_S64x1024x1024_2_2_1_1_0_0_wf : DotDims.WF S64x1024x1024 S64x1024x1024 S64x1024x1024 [2] [2] [1] [1] [0] [0]

variable [Facts₀]

def dot_S64x1024x1024_S64x1024x1024_S64x1024x1024_2_2_1_1_0_0 : DotDims S64x1024x1024 S64x1024x1024 S64x1024x1024 where
  lhsContracting := [2]
  rhsContracting := [2]
  lhsNonContracting := [1]
  rhsNonContracting := [1]
  lhsBatch := [0]
  rhsBatch := [0]
  wf := dot_S64x1024x1024_S64x1024x1024_S64x1024x1024_2_2_1_1_0_0_wf

class Facts : Prop extends Facts₀ where

variable [Facts]
-- ==== Proof.KPieces.lean ====
/-
  What one grid point leaves in the output tile.

  The body has two control cases.  At the first step of a core's reduction (second grid coordinate 0) it stores the
  zero tile, reads it back and stores "tile + padded share" over it; at every other step it reads the tile the
  previous step left and stores "tile + padded share".  In both cases the last store covers the whole 8 × 128 tile,
  so the tile afterwards is that store's value: the accumulating payload applied to the input block and to the tile
  it read (the zero payload in the first case, the carried tile otherwise).
-/
import proofs.«161164_j37520834298330_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KValue

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step: the tile holds the accumulating payload of the input block and the carried tile. -/
theorem out_B (c : Dev nD) (i : grid0.Coords) (a2 : Memref sig .tc .vmem S1x1024x1024 .f32) (h2 : a2.IsWhole)
    (a3 : Memref sig .tc .vmem S8x128 .f32) (h3 : a3.IsWhole) (hc : ¬cond0_0 i)
    (x : Vec F S1x1024x1024 .f32) (xo : Vec F S8x128 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz2]
  simp only [View.readAt_eq_ld, h2.read_unread, h3.read_unread, View.ld_unit_zero (S := S8x128) hz2,
    View.ld_unit_zero (S := S1x1024x1024) hz3]

/-- The first step of a core's reduction: the payload of the input block and the zero tile. -/
theorem out_A (c : Dev nD) (i : grid0.Coords) (a2 : Memref sig .tc .vmem S1x1024x1024 .f32) (h2 : a2.IsWhole)
    (a3 : Memref sig .tc .vmem S8x128 .f32) (h3 : a3.IsWhole) (hc : cond0_0 i)
    (x : Vec F S1x1024x1024 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S8x128) hz2, View.readCov_unit_zero (S := S8x128) _ hz2]
  simp only [View.readAt_eq_ld, h2.read_unread, View.ld_unit_zero (S := S1x1024x1024) hz3]

end Cert.KernelIdeal.KValue

end
-- ==== Proof.LibKeepdims.lean ====
/-
  A reduction along the last axis of an `[a, b]` array that keeps its dimension (`keepdims=True`): the `[a]` result is
  re-laid as a column `[a, 1]` and the column is spread back over the `b` lanes of every row. Read at an index, the
  column at `(i, u)` is the vector at `i`, the spread column at `(p, c)` is the column at `(p, 0)`, and the source
  index that a one-axis reduction along axis 1 visits for row `p` and coordinate `k` is `(p, k)`. Stated for any
  extents `a`, `b` and any element type.
-/
import Idealize.ShloMosaic.Lib.Pipeline.Value
import Idealize.ShloMosaic.Lib.ValueIdx
import Idealize.ShloMosaic.PureOps.Reduce

namespace Cert.Lib.Keepdims

open Idealize.ShloMosaic Idealize.ShloMosaic.ValueIdx

variable {α : Type}

/-- An `[a]` vector cast to the column `[a, 1]` reads, at `(i, u)`, the vector at `i`, whatever the unit coordinate `u`:
    both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector re-laid as a column and spread over the lanes reads, at `(p, c)`, the vector at `p`. -/
theorem column_spread_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-- A one-axis reduction of `[a, b]` along axis 1 visits, for row `p` and coordinate `k` of the reduced axis, the
    source index `(p, k)`. -/
theorem lift_axis1 {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

end Cert.Lib.Keepdims
-- ==== Proof.KPayload.lean ====
/-
  The accumulating payload read at the tile's corner, over the extended reals.

  The body turns its input block (one 1024 × 1024 matrix A) into one number: the sum over columns k of the squared
  column sum (Σ_r A[r,k])², minus the sum of all squares Σ_r Σ_k A[r,k]².  It pads that number into an 8 × 128 tile that
  is zero everywhere but at the corner (0,0), and adds the padded tile to the tile it read.  So at the corner the
  payload is the old corner plus that number; the zero payload is 0 there.
-/
import proofs.«161164_j37520834298330_2_alg».proof.Proof.Gen.KernelIdeal.Skeleton
import proofs.«161164_j37520834298330_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.KValue

open Cert.KernelIdeal Cert.KernelIdeal.Gen Cert.KernelIdeal.Facts₀ Cert.Lib.Keepdims

/-- A one-axis reduction of an [a, b] array along axis 0 visits, for column q and coordinate k, the entry (k, q). -/
theorem lift_axis0 {a b : ℕ} (h : (⟨2, ![a, b]⟩ : Shape).Reduces [0] ⟨1, ![b]⟩) (q : Fin b) (k : Fin a) :
    h.lift (ix1 q) k = ix2 k q :=
  funext fun c => Fin.ext (by match c with | ⟨0, _⟩ => rfl | ⟨1, _⟩ => rfl)

/-- The column sums of a 1024 × 1024 matrix. -/
theorem sum_axis0 (v : FVec Ideal S1024x1024 .f32) (h : S1024x1024.Reduces [0] S1024) (hφ : FKind.Formats .f32)
    (hacc : (0x00000000#32 : BitVec FTy.f32.bits) = FKind.add.neutral .f32 hφ) (k : Fin 1024) :
    multiReduction .add [0] S1024 v 0x00000000#32 h hφ hacc (ix1 k) = ∑ r : Fin 1024, v (ix2 r k) :=
  (Ideal.multiReduction_add_single v _ h hφ hacc (ix1 k)).trans
    (Finset.sum_congr rfl fun r _ => congrArg v (lift_axis0 h k r))

/-- The row sums of a 1024 × 1024 matrix. -/
theorem sum_axis1 (v : FVec Ideal S1024x1024 .f32) (h : S1024x1024.Reduces [1] S1024) (hφ : FKind.Formats .f32)
    (hacc : (0x00000000#32 : BitVec FTy.f32.bits) = FKind.add.neutral .f32 hφ) (r : Fin 1024) :
    multiReduction .add [1] S1024 v 0x00000000#32 h hφ hacc (ix1 r) = ∑ k : Fin 1024, v (ix2 r k) :=
  (Ideal.multiReduction_add_single v _ h hφ hacc (ix1 r)).trans
    (Finset.sum_congr rfl fun k _ => congrArg v (lift_axis1 h r k))

/-- The sum of a one-row array. -/
theorem sum_row (v : FVec Ideal S1x1024 .f32) (h : S1x1024.Reduces [1] S1) (hφ : FKind.Formats .f32)
    (hacc : (0x00000000#32 : BitVec FTy.f32.bits) = FKind.add.neutral .f32 hφ) :
    multiReduction .add [1] S1 v 0x00000000#32 h hφ hacc (ix1 (0 : Fin 1)) = ∑ k : Fin 1024, v (ix2 (0 : Fin 1) k) :=
  (Ideal.multiReduction_add_single v _ h hφ hacc (ix1 (0 : Fin 1))).trans
    (Finset.sum_congr rfl fun k _ => congrArg v (lift_axis1 h (0 : Fin 1) k))

/-- The sum of a one-column array. -/
theorem sum_col (v : FVec Ideal S1024x1 .f32) (h : S1024x1.Reduces [0] S1) (hφ : FKind.Formats .f32)
    (hacc : (0x00000000#32 : BitVec FTy.f32.bits) = FKind.add.neutral .f32 hφ) :
    multiReduction .add [0] S1 v 0x00000000#32 h hφ hacc (ix1 (0 : Fin 1)) = ∑ r : Fin 1024, v (ix2 r (0 : Fin 1)) :=
  (Ideal.multiReduction_add_single v _ h hφ hacc (ix1 (0 : Fin 1))).trans
    (Finset.sum_congr rfl fun r _ => congrArg v (lift_axis0 h (0 : Fin 1) r))

/-- The column sums of the input block, re-laid as one row: entry (0, k) is the sum of column k of the block's matrix. -/
theorem colsum_apply (x : FVec Ideal S1x1024x1024 .f32) (h1 : S1x1024x1024.ShapeCasts S1024x1024)
    (h : S1024x1024.Reduces [0] S1024) (hφ : FKind.Formats .f32)
    (hacc : (0x00000000#32 : BitVec FTy.f32.bits) = FKind.add.neutral .f32 hφ) (h2 : S1024.ShapeCasts S1x1024) (k : Fin 1024) :
    shapeCast S1x1024 (multiReduction (F := Ideal) .add [0] S1024 (shapeCast S1024x1024 x h1) 0x00000000#32 h hφ hacc) h2
      (ix2 (0 : Fin 1) k) = ∑ r : Fin 1024, x (ix3 (0 : Fin 1) r k) :=
  (shapeCast_a_1a_apply _ h2 (0 : Fin 1) k).trans ((sum_axis0 _ h hφ hacc k).trans
    (Finset.sum_congr rfl fun r _ => shapeCast_1ab_ab_apply x h1 r k))

/-- The pad mask (row index 0 and lane index 0) is set at the corner. -/
theorem mask_corner (h0 : S8x128.Iotas .tc 32 [0]) (h1 : S8x128.Iotas .tc 32 [1]) :
    andi (cmpi .eq (iota .tc S8x128 32 [0] h0) (broadcast S8x128 0#32))
      (cmpi .eq (iota .tc S8x128 32 [1] h1) (broadcast S8x128 0#32)) (ix2 (0 : Fin 8) (0 : Fin 128)) = 1#1 := by
  show IntOp.andi (IntOp.cmpi .eq (iota .tc S8x128 32 [0] h0 (ix2 (0 : Fin 8) (0 : Fin 128))) 0#32)
    (IntOp.cmpi .eq (iota .tc S8x128 32 [1] h1 (ix2 (0 : Fin 8) (0 : Fin 128))) 0#32) = 1#1
  rw [iota_single_apply, iota_single_apply]
  rfl

/-- One block's number, exactly as the body computes it over the extended reals. -/
def shareE (x : Vec Ideal S1x1024x1024 .f32) : EReal :=
  (∑ k : Fin 1024, (∑ r : Fin 1024, x (ix3 (0 : Fin 1) r k)) * (∑ r : Fin 1024, x (ix3 (0 : Fin 1) r k)))
    - ∑ r : Fin 1024, ∑ k : Fin 1024, x (ix3 (0 : Fin 1) r k) * x (ix3 (0 : Fin 1) r k)

theorem pay2_corner (x : Vec Ideal S1x1024x1024 .f32) (xo : Vec Ideal S8x128 .f32) :
    k0_pay2 (F := Ideal) x xo (ix2 (0 : Fin 8) (0 : Fin 128)) = xo (ix2 (0 : Fin 8) (0 : Fin 128)) + shareE x := by
  unfold k0_pay2
  dsimp only
  rw [addf_apply, select_apply, mask_corner, select_one, shapeCast_self]
  refine congrArg (xo (ix2 (0 : Fin 8) (0 : Fin 128)) + ·) ?_
  rw [broadcastTo_apply _ _ (ix2 (0 : Fin 8) (0 : Fin 128)) (ix2 (0 : Fin 1) (0 : Fin 1)) (fun a => by
    match a with | ⟨0, _⟩ => rfl | ⟨1, _⟩ => rfl)]
  rw [shapeCast_self, subf_apply, shapeCast_a_1a_apply _ _ (0 : Fin 1) (0 : Fin 1), shapeCast_a_1a_apply _ _ (0 : Fin 1) (0 : Fin 1),
    ]
  unfold shareE
  refine congrArg₂ (· - ·) ((sum_row _ _ _ _).trans (Finset.sum_congr rfl fun k _ => ?_))
    ((sum_col _ _ _ _).trans (Finset.sum_congr rfl fun r _ => ?_))
  · exact congrArg₂ (· * ·) (colsum_apply x _ _ _ _ _ k) (colsum_apply x _ _ _ _ _ k)
  · exact (shapeCast_a_a1_apply _ _ r (0 : Fin 1)).trans ((sum_axis1 _ _ _ _ r).trans
      (Finset.sum_congr rfl fun k _ =>
        congrArg₂ (· * ·) (shapeCast_1ab_ab_apply x _ r k) (shapeCast_1ab_ab_apply x _ r k)))

/-- The zero payload is 0 everywhere. -/
theorem pay1_apply (j : S8x128.Idx) : k0_pay1 (F := Ideal) j = 0 := by
  unfold k0_pay1
  exact Ideal.ofBits_zero_f32

end Cert.KernelIdeal.KValue

end
-- ==== Proof.KBlock.lean ====
/-
  The input block at a grid point.

  The grid is 2 × 32 and the input window's index map sends point (i, j) to batch entry 32·i + j, which is the point's
  own position t in the row-major walk of the grid.  So the 1 × 1024 × 1024 block the body loads at point t is batch
  entry t of the argument array: its entry (0, r, k) is the array's entry (t, r, k).
-/
import proofs.«161164_j37520834298330_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ)

/-- The input window's block index at point t is (t, 0, 0). -/
theorem idx_in : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)

theorem lt_N (t : Fin cfg0.N) : t.val < 64 := lt_of_lt_of_eq t.isLt (show cfg0.N = 64 from N_0)

/-- Entry (0, r, k) of the block loaded at point t is entry (t, r, k) of the argument array. -/
theorem iblk_apply (c : Dev nD) (t : Fin cfg0.N) (r k : Fin 1024) :
    (iblk m c 0 t : Vec F S1x1024x1024 .f32) (ix3 (0 : Fin 1) r k)
      = m ((c : Thread nD τ).loc main_arg0) (ix3 (⟨t.val, lt_N t⟩ : Fin 64) r k) := by
  obtain ⟨h0, h1, h2⟩ := idx_in t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val; rw [h0]; omega
  | ⟨1, _⟩ => show win0_0.index t 1 * 1024 + 1 * r.val = r.val; rw [h1]; omega
  | ⟨2, _⟩ => show win0_0.index t 2 * 1024 + 1 * k.val = k.val; rw [h2]; omega

end Cert.KernelIdeal.KValue

end
-- ==== Proof.RefAlg.lean ====
/-
  The algebra behind the reference's value, over the reals and over abstract finite index types.

  For a family of matrices x[b] (rows i, columns k) the sum of every entry of x[b] · x[b]ᵀ is the sum over the columns of
  the squared column sums, because  Σ_i Σ_j Σ_k x[i,k] · x[j,k] = Σ_k (Σ_i x[i,k]) · (Σ_j x[j,k]).  Subtracting the traces
  Σ_i Σ_k x[i,k]² batch entry by batch entry gives the sum of the shares.  Also here: reading a real as an extended real
  commutes with a finite sum.
-/
import Idealize.ShloMosaic.PureOps.Ideal

open scoped BigOperators

namespace Cert.ReferenceIdeal.RefValue

/-- Reading a real as an extended real commutes with a finite sum. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Every entry of x · xᵀ summed is the sum over the columns of the squared column sums. -/
theorem gram_total {I K : Type*} [Fintype I] [Fintype K] (x : I → K → ℝ) :
    ∑ i, ∑ j, ∑ k, x i k * x j k = ∑ k, (∑ r, x r k) * (∑ r, x r k) :=
  calc ∑ i, ∑ j, ∑ k, x i k * x j k
      = ∑ i, ∑ k, ∑ j, x i k * x j k := Finset.sum_congr rfl fun _ _ => Finset.sum_comm
    _ = ∑ k, ∑ i, ∑ j, x i k * x j k := Finset.sum_comm
    _ = ∑ k, (∑ r, x r k) * (∑ r, x r k) :=
        Finset.sum_congr rfl fun _ _ => (Finset.sum_mul_sum _ _ _ _).symm

/-- All of x · xᵀ minus the traces, summed over the batch, is the sum of the shares. -/
theorem offdiag_alg {B I K : Type*} [Fintype B] [Fintype I] [Fintype K] (xr : B → I → K → ℝ) :
    (∑ b, ∑ i, ∑ j, ∑ k, xr b i k * xr b j k) - (∑ b, ∑ i, ∑ k, xr b i k * xr b i k)
      = ∑ b, ((∑ k, (∑ r, xr b r k) * (∑ r, xr b r k)) - ∑ r, ∑ k, xr b r k * xr b r k) := by
  rw [← Finset.sum_sub_distrib]
  exact Finset.sum_congr rfl fun b _ => by rw [gram_total]

end Cert.ReferenceIdeal.RefValue
-- ==== Proof.Spec.lean ====
/-
  The mathematics both programs compute, stated once over the reals.

  For a batch of 64 square matrices x[b] (1024 × 1024) let m[b] = x[b] · x[b]ᵀ.  The off-diagonal mass of m[b] is
  the sum of all its entries minus its trace.  Because
      Σ_{i,j} m[b,i,j] = Σ_{i,j} Σ_k x[b,i,k] · x[b,j,k] = Σ_k (Σ_i x[b,i,k])²        (the squared column sums)
      trace m[b]        = Σ_i Σ_k x[b,i,k]²                                            (the sum of squares)
  one batch entry's share is  Σ_k (Σ_i x[b,i,k])² − Σ_i Σ_k x[b,i,k]²,  the loss is the sum of the shares over the batch,
  and the result is that loss divided by the batch size 64.  Both programs end with the same quotient by the same
  literal, so the common result is stated as that quotient of the real loss read as an extended real.
-/
import Idealize.ShloMosaic.PureOps.Ideal
import Idealize.ShloMosaic.Lib.ValueIdx

noncomputable section

open scoped BigOperators

namespace Cert.Ortho

open Idealize.ShloMosaic Idealize.ShloMosaic.ValueIdx

/-- One batch entry's share over the reals: the squared column sums minus the sum of squares. -/
def share (xr : Fin 64 → Fin 1024 → Fin 1024 → ℝ) (b : Fin 64) : ℝ :=
  (∑ k : Fin 1024, (∑ r : Fin 1024, xr b r k) * (∑ r : Fin 1024, xr b r k))
    - ∑ r : Fin 1024, ∑ k : Fin 1024, xr b r k * xr b r k

/-- The loss before the division: the shares summed over the batch. -/
def loss (xr : Fin 64 → Fin 1024 → Fin 1024 → ℝ) : ℝ := ∑ b : Fin 64, share xr b

/-- The argument array holds real numbers: entry (b, r, k) is the real `xr b r k`. -/
def IsReal (x : FVec Ideal ⟨3, ![64, 1024, 1024]⟩ .f32) (xr : Fin 64 → Fin 1024 → Fin 1024 → ℝ) : Prop :=
  ∀ (b : Fin 64) (r k : Fin 1024), x (ix3 b r k) = ((xr b r k : ℝ) : EReal)

/-- The common result: the real loss, read as an extended real, divided on the host by the literal 64.0. -/
def result (xr : Fin 64 → Fin 1024 → Fin 1024 → ℝ) : FVec Ideal ⟨0, ![]⟩ .f32 :=
  Host.divf (F := Ideal) (fun _ => ((loss xr : ℝ) : EReal)) (constant (F := Ideal) ⟨0, ![]⟩ .f32 0x42800000#32)

end Cert.Ortho

end
-- ==== Proof.KAlg.lean ====
/-
  The accumulator's arithmetic over the reals.

  The 64 batch entries are visited in order, 32 to a core; a core's accumulator restarts at the first of its 32 points and
  adds one share per point.  After the last point of each half the accumulator holds that half's shares, and the two
  halves together are the loss.
-/
import proofs.«161164_j37520834298330_2_alg».proof.Proof.Spec

noncomputable section

open scoped BigOperators

namespace Cert.Ortho

/-- Batch entry n's share, 0 past the batch. -/
def shareN (xr : Fin 64 → Fin 1024 → Fin 1024 → ℝ) (n : ℕ) : ℝ := if h : n < 64 then share xr ⟨n, h⟩ else 0

/-- What a core's accumulator holds after grid point n: it restarts at every multiple of 32 and otherwise adds the point's share. -/
def accN (xr : Fin 64 → Fin 1024 → Fin 1024 → ℝ) : ℕ → ℝ
  | 0 => shareN xr 0
  | n + 1 => if (n + 1) % 32 = 0 then shareN xr (n + 1) else accN xr n + shareN xr (n + 1)

/-- At a multiple of 32 the accumulator is the point's share alone. -/
theorem accN_restart (xr : Fin 64 → Fin 1024 → Fin 1024 → ℝ) (n : ℕ) (h : n % 32 = 0) : accN xr n = shareN xr n := by
  cases n with
  | zero => rfl
  | succ m => rw [accN, if_pos h]

/-- Elsewhere it adds the point's share. -/
theorem accN_step (xr : Fin 64 → Fin 1024 → Fin 1024 → ℝ) (n : ℕ) (h : (n + 1) % 32 ≠ 0) :
    accN xr (n + 1) = accN xr n + shareN xr (n + 1) := by
  rw [accN, if_neg h]

/-- Inside block i of 32 points, after the block's point j the accumulator holds the block's first j + 1 shares. -/
theorem accN_block (xr : Fin 64 → Fin 1024 → Fin 1024 → ℝ) (i : ℕ) :
    ∀ j : ℕ, j < 32 → accN xr (32 * i + j) = ∑ j' ∈ Finset.range (j + 1), shareN xr (32 * i + j') := by
  intro j
  induction j with
  | zero =>
    intro _
    rw [accN_restart xr (32 * i + 0) (by omega), Finset.sum_range_one]
  | succ j ih =>
    intro hj
    rw [← Nat.add_assoc, accN_step xr (32 * i + j) (by omega), ih (by omega), Finset.sum_range_succ _ (j + 1), Nat.add_assoc]

/-- The first core's accumulator after its last point. -/
theorem accN_31 (xr : Fin 64 → Fin 1024 → Fin 1024 → ℝ) : accN xr 31 = ∑ n ∈ Finset.range 32, shareN xr n := by
  have h := accN_block xr 0 31 (by omega)
  simpa only [Nat.mul_zero, Nat.zero_add] using h

/-- The second core's accumulator after its last point. -/
theorem accN_63 (xr : Fin 64 → Fin 1024 → Fin 1024 → ℝ) : accN xr 63 = ∑ n ∈ Finset.range 32, shareN xr (32 + n) := by
  have h := accN_block xr 1 31 (by omega)
  simpa only [Nat.mul_one] using h

/-- The loss as the sum of the 64 shares in grid order. -/
theorem loss_eq_range (xr : Fin 64 → Fin 1024 → Fin 1024 → ℝ) : loss xr = ∑ n ∈ Finset.range 64, shareN xr n := by
  rw [← Fin.sum_univ_eq_sum_range]
  unfold loss
  refine Finset.sum_congr rfl fun b _ => ?_
  unfold shareN
  rw [dif_pos b.isLt]

/-- The two cores' final accumulators add up to the loss. -/
theorem accN_total (xr : Fin 64 → Fin 1024 → Fin 1024 → ℝ) : accN xr 31 + accN xr 63 = loss xr := by
  have h64 : Finset.range 64 = Finset.range (32 + 32) := rfl
  rw [loss_eq_range, h64, Finset.sum_range_add, accN_31, accN_63]

end Cert.Ortho

end
-- ==== Proof.KAcc.lean ====
/-
  The tile's corner after every grid point.

  With the argument array holding real numbers, the number the body extracts from the block at point t is the real
  share of batch entry t.  The corner of the output tile restarts from zero at the first step of each core's
  reduction (t a multiple of 32) and otherwise adds the point's share to what the previous point left, so after point n
  it holds the running sum since the last restart — by induction on the point, never by enumerating the grid.
-/
import proofs.«161164_j37520834298330_2_alg».proof.Proof.KPieces
import proofs.«161164_j37520834298330_2_alg».proof.Proof.KPayload
import proofs.«161164_j37520834298330_2_alg».proof.Proof.KBlock
import proofs.«161164_j37520834298330_2_alg».proof.Proof.RefAlg
import proofs.«161164_j37520834298330_2_alg».proof.Proof.KAlg

noncomputable section

open scoped BigOperators
open Idealize.ShloMosaic Idealize.ShloMosaic.TcCoe Idealize.SL.Sem Idealize.ShloMosaic.ValueIdx

namespace Cert.KernelIdeal.KValue

open Cert.KernelIdeal Cert.KernelIdeal.Gen Cert.Ortho

/-- A block of real numbers: its number is the real "squared column sums minus sum of squares". -/
theorem shareE_of_real (x : Vec Ideal S1x1024x1024 .f32) (y : Fin 1024 → Fin 1024 → ℝ)
    (e : ∀ r k : Fin 1024, x (ix3 (0 : Fin 1) r k) = ((y r k : ℝ) : EReal)) :
    shareE x = (((∑ k : Fin 1024, (∑ r : Fin 1024, y r k) * (∑ r : Fin 1024, y r k))
      - ∑ r : Fin 1024, ∑ k : Fin 1024, y r k * y r k : ℝ) : EReal) := by
  unfold shareE
  simp only [e, EReal.coe_sub, Cert.ReferenceIdeal.RefValue.coe_sum, EReal.coe_mul]

variable (m : (ℓ : Loc nD τ sig) → Buf (Elt Ideal) ℓ)

/-- At point t the block's number is the real share of batch entry t. -/
theorem shareE_iblk (c : Dev nD) (xr : Fin 64 → Fin 1024 → Fin 1024 → ℝ)
    (h : IsReal (m ((c : Thread nD τ).loc main_arg0)) xr) (t : Fin cfg0.N) :
    shareE (iblk m c 0 t) = ((shareN xr t.val : ℝ) : EReal) := by
  have e : ∀ r k : Fin 1024, (iblk m c 0 t : Vec Ideal S1x1024x1024 .f32) (ix3 (0 : Fin 1) r k)
      = ((xr ⟨t.val, lt_N t⟩ r k : ℝ) : EReal) := fun r k => (iblk_apply m c t r k).trans (h _ r k)
  refine (shareE_of_real _ _ e).trans ?_
  unfold shareN
  rw [dif_pos (lt_N t)]
  rfl

/-- The corner of the output tile after point n is the running sum since the last restart. -/
theorem outsAt_corner (c : Dev nD) (xr : Fin 64 → Fin 1024 → Fin 1024 → ℝ)
    (h : IsReal (m ((c : Thread nD τ).loc main_arg0)) xr) :
    ∀ (n : ℕ) (hn : n < cfg0.N), outsAt0 m c n hn (ix2 (0 : Fin 8) (0 : Fin 128)) = ((accN xr n : ℝ) : EReal)
  | 0, hn => by
    rw [outsAt0_A m c ⟨0, hn⟩ rfl, out_A, pay2_corner, pay1_apply, zero_add, shareE_iblk m c xr h]
    rfl
  | n + 1, hn => by
    by_cases h0 : (n + 1) % 32 = 0
    · rw [outsAt0_A m c ⟨n + 1, hn⟩ h0, out_A, pay2_corner, pay1_apply, zero_add, shareE_iblk m c xr h]
      show _ = ((if (n + 1) % 32 = 0 then shareN xr (n + 1) else accN xr n + shareN xr (n + 1) : ℝ) : EReal)
      rw [if_pos h0]
    · rw [outsAt0_B m c ⟨n + 1, hn⟩ h0, out_B, pay2_corner, shareE_iblk m c xr h]
      show outsAt0 m c n _ (ix2 (0 : Fin 8) (0 : Fin 128)) + _ = ((if (n + 1) % 32 = 0 then shareN xr (n + 1) else accN xr n + shareN xr (n + 1) : ℝ) : EReal)
      rw [outsAt_corner c xr h n, if_neg h0, EReal.coe_add]

end Cert.KernelIdeal.KValue

end
-- ==== Proof.KRun.lean ====
/-
  The kernel program's run, read back.

  The kernel runs on a grid of 2 × 32 points, point t = 32·i + j.  Its output is a [16,128] array seen through a window
  whose block at point t is the eight rows 8i … 8i+7 (block index (i, 0)); the block's tile is carried from point to
  point and written back to the array only at the last point of each half, t = 31 and t = 63.  So after the run the
  array holds, on rows 8i … 8i+7, what the tile holds after point 32·i + 31: the whole array is ONE function `G` of the
  index, entry (r, l) being entry (r mod 8, l) of the tile after point 32·(r / 8) + 31.

  After the region the program reads the 1×1 corners at rows 0 and 8 (column 0) of that array, reshapes each to a
  scalar, adds them and divides by the literal 64.0.  The corners are entry (0, 0) of the tile after point 31 and after
  point 63 (`corner0`, `corner1`), so the result is (corner0 + corner1) / 64.0 (`kernelTerm`), and the argument array is
  unchanged.
-/
import proofs.«161164_j37520834298330_2_alg».proof.Proof.Gen.KernelIdeal.Frame
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

variable {F : FTy → Type} [FloatOps F]
variable (m : (ℓ : Loc nD τ sig) → Buf (Elt F) ℓ) (ρ : Dev nD → PrngReg)

/-- The last point of the half that holds row r, 32·(r / 8) + 31, is a point of the grid. -/
theorem lastOfHalf_lt (r : Nat) (h : r < 16) : 32 * (r / 8) + 31 < cfg0.N := by
  rw [show cfg0.N = 64 from N_0]; omega

/-- The whole [16,128] result array as one function of the index: entry (r, l) is entry (r mod 8, l) of the output
    tile after the last point of the half that holds row r. -/
def G (c : Dev nD) : S16x128.Idx → Elt F .f32 := fun idx =>
  outsAt0 m c (32 * ((idx 0).val / 8) + 31) (lastOfHalf_lt _ (idx 0).isLt)
    (ix2 (⟨(idx 0).val % 8, Nat.mod_lt _ (by decide)⟩ : Fin 8) (⟨(idx 1).val, (idx 1).isLt⟩ : Fin 128))

/-- The tile after a point depends only on the point's number and on the index read. -/
theorem outsAt0_congr (c : Dev nD) {n n' : Nat} (h : n < cfg0.N) (h' : n' < cfg0.N) (e : n = n') {i i' : S8x128.Idx}
    (ei : i = i') : outsAt0 m c n h i = outsAt0 m c n' h' i' := by
  subst e; subst ei; rfl

/-- The output window's block index at point t is (t / 32, 0): decided over the 64 points. -/
theorem index_facts : ∀ t : Fin cfg0.N, win0_1.index t 0 = t.val / 32 ∧ win0_1.index t 1 = 0 :=
  (by decide +kernel : ∀ t : Fin grid0.N, win0_1.index t 0 = t.val / 32 ∧ win0_1.index t 1 = 0)

/-- What a writing-back point t (t ≡ 31 mod 32) writes is its block of `G`: element y of the block sits in the array at
    row 8·(t / 32) + y₀, column y₁; that row's half ends at 32·(t / 32) + 31 = t, and the row modulo 8 is y₀. -/
theorem flushed_eq (c : Dev nD) (t : Fin cfg0.N) (hf : (cfg0.win 1).flush t = true) :
    (dats m 0 c).flushed 1 t = ((cfg0.win 1).blk t).view.read (Elt F) (G m c) := by
  have hN : cfg0.N = 64 := N_0
  have h31 : t.val % 32 = 31 := (flush0_1 t).mp hf
  have hlt : t.val < 64 := hN ▸ t.isLt
  obtain ⟨e0, e1⟩ := index_facts t
  show (cfg0.win 1).cut (grid0.coords t) ((dats m 0 c).after 1 t) = _
  rw [after0_1]
  funext y
  rw [View.read_apply]
  have hy0 : (y 0).val < 8 := (y 0).isLt
  have hr0 : ((((cfg0.win 1).blk t).view.emb y) 0).val = win0_1.index t 0 * 8 + 1 * (y 0).val := rfl
  have hr1 : ((((cfg0.win 1).blk t).view.emb y) 1).val = win0_1.index t 1 * 128 + 1 * (y 1).val := rfl
  show outsAt0 m c t.val t.isLt ((cfg0.win 1).xinj (grid0.coords t) y) = G m c (((cfg0.win 1).blk t).view.emb y)
  unfold G
  refine outsAt0_congr m c _ _ ?_ ?_
  · rw [hr0, e0]; omega
  · funext a
    match a with
    | ⟨0, _⟩ => exact Fin.ext (by show (y 0).val = ((((cfg0.win 1).blk t).view.emb y) 0).val % 8; rw [hr0, e0]; omega)
    | ⟨1, _⟩ => exact Fin.ext (by show (y 1).val = ((((cfg0.win 1).blk t).view.emb y) 1).val; rw [hr1, e1]; omega)

/-- An index of the array is in point t's block iff each coordinate is in the block's range on its axis. -/
theorem mem_blk (t : Fin cfg0.N) (i : S16x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- The two writing-back points cover the array (row r by point 32·(r / 8) + 31), so it ends holding `G`. -/
theorem final (c : Dev nD) : (dats m 0 c).arrAt 1 cfg0.N = G m c :=
  (dats m 0 c).arrAt_eq_of_cover 1 (G m c) (flushed_eq m c) fun i => by
    have hi0 : (i 0).val < 16 := (i 0).isLt
    have hi1 : (i 1).val < 128 := (i 1).isLt
    obtain ⟨e0, e1⟩ := index_facts ⟨32 * ((i 0).val / 8) + 31, lastOfHalf_lt _ hi0⟩
    refine ⟨⟨32 * ((i 0).val / 8) + 31, lastOfHalf_lt _ hi0⟩, (flush0_1 _).mpr (by show (32 * ((i 0).val / 8) + 31) % 32 = 31; omega), ?_⟩
    rw [mem_blk]
    intro a
    match a with
    | ⟨0, _⟩ =>
      show win0_1.index ⟨32 * ((i 0).val / 8) + 31, lastOfHalf_lt _ hi0⟩ 0 * 8 ≤ (i 0).val
        ∧ (i 0).val < win0_1.index ⟨32 * ((i 0).val / 8) + 31, lastOfHalf_lt _ hi0⟩ 0 * 8 + 8
      rw [e0]; dsimp only; omega
    | ⟨1, _⟩ =>
      show win0_1.index ⟨32 * ((i 0).val / 8) + 31, lastOfHalf_lt _ hi0⟩ 1 * 128 ≤ (i 1).val
        ∧ (i 1).val < win0_1.index ⟨32 * ((i 0).val / 8) + 31, lastOfHalf_lt _ hi0⟩ 1 * 128 + 128
      rw [e1]; omega

theorem lt31 : 31 < cfg0.N := by rw [show cfg0.N = 64 from N_0]; decide
theorem lt63 : 63 < cfg0.N := by rw [show cfg0.N = 64 from N_0]; decide

/-- Entry (0, 0) of the output tile after point 31, the last point of the first half. -/
def corner0 (c : Dev nD) : Elt F .f32 := outsAt0 m c 31 lt31 (ix2 (0 : Fin 8) (0 : Fin 128))
/-- Entry (0, 0) of the output tile after point 63, the last point of the second half. -/
def corner1 (c : Dev nD) : Elt F .f32 := outsAt0 m c 63 lt63 (ix2 (0 : Fin 8) (0 : Fin 128))
/-- The program's result: the two corners added and divided by the literal 64.0. -/
def kernelTerm (c : Dev nD) : FVec F S_ .f32 :=
  Host.divf (addf (fun _ => corner0 m c) (fun _ => corner1 m c)) (constant S_ .f32 0x42800000#32)

/-- The 1×1 slice of a [16,128] array at row r, column 0, reshaped to a scalar, is entry (r, 0): the scalar's one index
    and the slice's one index both sit at row-major position 0. -/
theorem scalar_of_corner (x : S16x128.Idx → Elt F .f32) (r : Fin 16) (off : Fin 2 → Nat) (hoff : off = ![r.val, 0])
    (hs : S16x128.Slices off S1x1) (hc : S1x1.ShapeCasts S_) (j : S_.Idx) :
    shapeCast S_ (extractStridedSlice S1x1 off x hs) hc j = x (ix2 r (0 : Fin 128)) := by
  subst hoff
  refine (shapeCast_apply _ hc j (ix2 (0 : Fin 1) (0 : Fin 1)) ?_).trans ?_
  · have h1 := (S_.rowMajor j).isLt
    have hn : S_.numel = 1 := by decide
    rw [Shape.rowMajor_val_two]
    show 0 * 1 + 0 = _
    omega
  · refine extractStridedSlice_apply _ x hs _ (ix2 r (0 : Fin 128)) ?_
    intro a
    match a with
    | ⟨0, _⟩ => show r.val = r.val + 0; omega
    | ⟨1, _⟩ => show 0 = 0 + 0; rfl

/-- Row 0 lies in the first half: `G` at (0, 0) is the first corner. -/
theorem G_corner0 (c : Dev nD) : G m c (ix2 (0 : Fin 16) (0 : Fin 128)) = corner0 m c := by
  unfold G corner0
  exact outsAt0_congr m c _ _ rfl rfl

/-- Row 8 is the first row of the second half: `G` at (8, 0) is the second corner. -/
theorem G_corner1 (c : Dev nD) : G m c (ix2 (8 : Fin 16) (0 : Fin 128)) = corner1 m c := by
  unfold G corner1
  exact outsAt0_congr m c _ _ rfl rfl

/-- The lines after the region, run from the region's exit contents (the result array at `G`), leave `kernelTerm` in
    the result buffer. -/
theorem tail_eq (c : Dev nD) :
    Pipeline.afterTail₀ cfgs (dats m) 0 (V0 m) [hostOps1] c main_v6 = kernelTerm m c := by
  unfold Pipeline.afterTail₀
  show StableHlo.after hostOps1 _ (Proc.devRef .tc main_v6) = _
  after_results
  have hW : Pipeline.withArrays (cfgs 0).spec c (V0 m c) (fun w => (dats m 0 c).arrAt w (cfgs 0).N) (Proc.devRef .tc main_v0) = G m c :=
    (Pipeline.withArrays_arr spec0 launch0.win.arr_inj c _ _ 1).trans (final m c)
  rw [hW]
  unfold kernelTerm
  refine congrArg (fun z => Host.divf z (constant S_ .f32 0x42800000#32)) ?_
  refine congrArg₂ addf (funext fun i => ?_) (funext fun i => ?_)
  · exact (scalar_of_corner (G m c) 0 _ rfl _ _ i).trans (G_corner0 m c)
  · exact (scalar_of_corner (G m c) 8 _ rfl _ _ i).trans (G_corner1 m c)

/-- On every device, for any float values, from any memory with zero counters: every weakly fair execution of @main
    terminates with the result buffer at `kernelTerm` and the argument array unchanged. -/
theorem run : θ_run defs (onTc (τ := τ) (main (F := F))) ⟨m, fun _ => 0, ρ⟩ fun r => ∀ c : Dev nD,
      r.2.mem ((c.tc : Thread nD τ).loc main_v6) = kernelTerm m c
      ∧ r.2.mem ((c.tc : Thread nD τ).loc main_arg0) = m ((c.tc : Thread nD τ).loc main_arg0) :=
  (θ_run defs _ _).mono (fun _ h c =>
      ⟨((h c).2 main_v6 (Pipeline.mem_restRefs_of main_v6 rfl (by decide))).trans (tail_eq m c),
       ((h c).1 0).trans (((dats m 0 c).arrAt_in 0 rfl _).trans ((A_eq m c 0).trans (V_main_arg0 m c)))⟩)
    (run_main m ρ)

end Cert.KernelIdeal.KValue

end
-- ==== Proof.KValue.lean ====
/-
  The kernel's result is the common result.

  After the region the [16, 128] array holds, at (0,0) and (8,0), the corners of the two cores' tiles after their last
  steps: the running sums over batch entries 0…31 and 32…63.  The host adds the two and divides by the literal 64.0.
  With real entries the two corners are real, their sum is the loss, and the quotient is the common result.
-/
import proofs.«161164_j37520834298330_2_alg».proof.Proof.KAcc
import proofs.«161164_j37520834298330_2_alg».proof.Proof.KRun
import proofs.«161164_j37520834298330_2_alg».proof.Proof.KAlg

noncomputable section

open Idealize.ShloMosaic Idealize.ShloMosaic.TcCoe Idealize.SL.Sem Idealize.ShloMosaic.ValueIdx

namespace Cert.KernelIdeal.KValue

open Cert.KernelIdeal Cert.KernelIdeal.Gen Cert.Ortho

variable (m : (ℓ : Loc nD τ sig) → Buf (Elt Ideal) ℓ)

/-- The two corners add up to the loss, so the kernel's quotient is the common result. -/
theorem kernelTerm_eq (c : Dev nD) (xr : Fin 64 → Fin 1024 → Fin 1024 → ℝ)
    (h : IsReal (m ((c : Thread nD τ).loc main_arg0)) xr) : kernelTerm m c = Cert.Ortho.result xr := by
  unfold kernelTerm Cert.Ortho.result
  refine congrArg (fun n => Host.divf (F := Ideal) n (constant (F := Ideal) ⟨0, ![]⟩ .f32 0x42800000#32)) ?_
  funext j
  show corner0 m c + corner1 m c = _
  unfold corner0 corner1
  rw [outsAt_corner m c xr h, outsAt_corner m c xr h, ← EReal.coe_add, accN_total]

end Cert.KernelIdeal.KValue

end
-- ==== Proof.RefTerm.lean ====
/-
  The reference's result as one pure term of its argument array, the operations in program order:
  the batched product m = x · xᵀ, the diagonal mask (row index + 0 = column index) spread over the batch, the masked
  copy of m (zero off the diagonal), its sum over the two matrix axes (the traces), their sum over the batch, the sum
  of all of m, the difference, and the quotient by the literal 64.0.
-/
import proofs.«161164_j37520834298330_2_alg».proof.ReferenceIdeal

noncomputable section

namespace Cert.ReferenceIdeal.RefValue

open Idealize.ShloMosaic Cert.ReferenceIdeal Cert.ReferenceIdeal.Facts₀

variable {F : FTy → Type} [FloatOps F] [Facts]

/-- The batched product m[b,i,j] = Σ_k x[b,i,k] · x[b,j,k]. -/
def gram (x : FVec F S64x1024x1024 .f32) : FVec F S64x1024x1024 .f32 :=
  Host.dotGeneral dot_S64x1024x1024_S64x1024x1024_S64x1024x1024_2_2_1_1_0_0 none x x

/-- The diagonal mask of a 1024 × 1024 matrix: row index plus zero equals column index. -/
def diagMask : IVec S1024x1024 1 :=
  cmpi .eq (addi (iotaInDim S1024x1024 32 0) (broadcastInDim S1024x1024 ![] bcast_S_S1024x1024 (constantI S_ 32 0#32)))
    (iotaInDim S1024x1024 32 1)

/-- m with everything off the diagonal replaced by zero. -/
def diagOnly (x : FVec F S64x1024x1024 .f32) : FVec F S64x1024x1024 .f32 :=
  select (broadcastInDim S64x1024x1024 ![1, 2] bcast_S1024x1024_S64x1024x1024_1_2 diagMask) (gram x)
    (broadcastInDim S64x1024x1024 ![] bcast_S_S64x1024x1024 (constant S_ .f32 0x00000000#32))

/-- The traces, one per batch entry. -/
def traces (x : FVec F S64x1024x1024 .f32) : FVec F S64 .f32 :=
  Host.reduceAdd (diagOnly x) (constant S_ .f32 0x00000000#32) reducesTo_S64x1024x1024_S64_d1_2 h_S_

/-- The traces summed over the batch. -/
def traceSum (x : FVec F S64x1024x1024 .f32) : FVec F S_ .f32 :=
  Host.reduceAdd (traces x) (constant S_ .f32 0x00000000#32) reducesTo_S64_S_d0 h_S_

/-- Every entry of m summed. -/
def gramSum (x : FVec F S64x1024x1024 .f32) : FVec F S_ .f32 :=
  Host.reduceAdd (gram x) (constant S_ .f32 0x00000000#32) reducesTo_S64x1024x1024_S_d0_1_2 h_S_

/-- The reference's result. -/
def refTerm (x : FVec F S64x1024x1024 .f32) : FVec F S_ .f32 :=
  Host.divf (subf (gramSum x) (traceSum x)) (constant S_ .f32 0x42800000#32)

end Cert.ReferenceIdeal.RefValue

end
-- ==== Proof.RefRun.lean ====
/-
  The reference program's run.

  @main calls the private function @trace, which calls @_where; a call executes the callee's body on the operands, so
  with the two calls opened at their call sites @main is one straight line of 20 operations: the batched product; then
  @trace's two iotas, the integer zero and its spread, the sum, the comparison (the diagonal mask), the float zero and
  its spread, @_where's spread of the mask over the batch and its select, the float zero and the sum over the two matrix
  axes; then @main's own zero and sum over the batch, zero and sum of the whole product, the difference, the literal
  64.0 and the quotient.  Every weakly fair execution of that line terminates; the result buffer then holds the
  operations' composed term of the argument's launch contents, which is `refTerm`, and the argument is unchanged.
-/
import proofs.«161164_j37520834298330_2_alg».proof.Proof.RefTerm
import Idealize.ShloMosaic.Lib.StableHlo.Run

noncomputable section

namespace Cert.ReferenceIdeal.RefValue

open Cert.ReferenceIdeal Cert.ReferenceIdeal.Facts₀ Idealize.ShloMosaic Idealize.ShloMosaic.TcCoe Idealize.SL.Sem
  Idealize.ShloMosaic.StableHlo

variable {F : FTy → Type} [FloatOps F] [Facts]

/-- @main's 20 operations in order, the two calls opened: @trace's run into the record `main_call0`'s buffers and,
    inside it, @_where's into `main_call0_call0`'s. -/
abbrev ops : List (HloOp τ sig (Elt F)) :=
  [ binary main_arg0 main_arg0 main_v0 ((fun l r => Host.dotGeneral dot_S64x1024x1024_S64x1024x1024_S64x1024x1024_2_2_1_1_0_0 none l r) : (⟨S64x1024x1024, .f32⟩ : BufTy).Contents (Elt F) → (⟨S64x1024x1024, .f32⟩ : BufTy).Contents (Elt F) → (⟨S64x1024x1024, .f32⟩ : BufTy).Contents (Elt F)),
    TRef.nullary main_call0.v0 (iotaInDim S1024x1024 32 0),
    TRef.nullary main_call0.v1 (iotaInDim S1024x1024 32 1),
    TRef.nullary main_call0.c (constantI S_ 32 0#32),
    TRef.unary main_call0.c main_call0.v2 (broadcastInDim S1024x1024 ![] bcast_S_S1024x1024),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S64x1024x1024 ![] bcast_S_S64x1024x1024),
    TRef.unary main_call0.v4 main_call0.call0.v0 (broadcastInDim S64x1024x1024 ![1, 2] bcast_S1024x1024_S64x1024x1024_1_2),
    TRef.ternary main_call0.call0.v0 (.of main_v0) main_call0.v5 main_call0.call0.v1 select,
    TRef.nullary main_call0.cst_0 (constant S_ .f32 0x00000000#32),
    TRef.binary main_call0.call0.v1 main_call0.cst_0 main_call0.v7 (fun x v => Host.reduceAdd x v reducesTo_S64x1024x1024_S64_d1_2 h_S_),
    nullary main_cst (constant S_ .f32 0x00000000#32),
    binary main_v1 main_cst main_v2 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    nullary main_cst_0 (constant S_ .f32 0x00000000#32),
    binary main_v0 main_cst_0 main_v3 ((fun x v => Host.reduceAdd x v reducesTo_S64x1024x1024_S_d0_1_2 h_S_) : (⟨S64x1024x1024, .f32⟩ : BufTy).Contents (Elt F) → (⟨S_, .f32⟩ : BufTy).Contents (Elt F) → (⟨S_, .f32⟩ : BufTy).Contents (Elt F)),
    binary main_v3 main_v2 main_v4 (subf : (⟨S_, .f32⟩ : BufTy).Contents (Elt F) → (⟨S_, .f32⟩ : BufTy).Contents (Elt F) → (⟨S_, .f32⟩ : BufTy).Contents (Elt F)),
    nullary main_cst_1 (constant S_ .f32 0x42800000#32),
    binary main_v4 main_cst_1 main_v5 (Host.divf : (⟨S_, .f32⟩ : BufTy).Contents (Elt F) → (⟨S_, .f32⟩ : BufTy).Contents (Elt F) → (⟨S_, .f32⟩ : BufTy).Contents (Elt F)) ]

set_option maxRecDepth 1024 in
/-- @main is that straight line: the two functions' definitions opened at their calls, and the sequencing
    reassociated, both sides are one chain of the same steps. -/
theorem main_eq (c : Dev nD) : main (F := F) c = seq ops := by
  simp only [main, fn_trace.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops (F := F) : List (HloOp τ sig (Elt F))).Forall fun op => op.bufs ⊆ tcRefs τ sig :=
  ⟨binary_bufs_sub .., nullary_bufs_sub .., nullary_bufs_sub .., nullary_bufs_sub .., unary_bufs_sub .., binary_bufs_sub ..,
    binary_bufs_sub .., nullary_bufs_sub .., unary_bufs_sub .., unary_bufs_sub .., ternary_bufs_sub .., nullary_bufs_sub ..,
    binary_bufs_sub .., nullary_bufs_sub .., binary_bufs_sub .., nullary_bufs_sub .., binary_bufs_sub .., binary_bufs_sub ..,
    nullary_bufs_sub .., binary_bufs_sub ..⟩

attribute [local irreducible] Host.reduceAdd in
/-- What the result buffer holds after the line: the fold of the operations opened, each operation's result read at
    its own buffer and passed over at every other one; the typed references of the two functions' records are literal
    buffers, so their transports are the identity, and what is left is `refTerm` of the argument's contents.  The two
    sums and the batched product stay closed throughout: the equation never looks inside them. -/
theorem out_eq (V : Valuation τ sig (Elt F)) :
    after ops V (main_v5 : DevRef τ sig) = refTerm (V (main_arg0 : DevRef τ sig)) := by
  unfold refTerm gramSum traceSum traces diagOnly diagMask gram
  after_results
  rfl

/-- No operation writes the argument's buffer. -/
theorem arg0_eq (V : Valuation τ sig (Elt F)) :
    after ops V (main_arg0 : DevRef τ sig) = V (main_arg0 : DevRef τ sig) := by
  after_results

/-- On every device, for any float values, from any memory with zero counters: every weakly fair execution of @main
    terminates with the result at `refTerm` of the argument's launch contents and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v5) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v5).trans (out_eq _), (h c main_arg0).trans (arg0_eq _)⟩)
    (run_seq scopedRefs_eq scopedSems_eq defs main (fun _ => ops) main_eq (fun _ => ops_sub) m ρ)

end Cert.ReferenceIdeal.RefValue

end
-- ==== Proof.RefRead.lean ====
/-
  The reference's intermediate arrays read at an index, at the ideal values.

  The batched product at (b, i, j) is the sum over the contracted coordinate k of x[b,i,k] · x[b,j,k]; the diagonal mask
  at (i, j) says i = j (the two coordinates are below 2³², so their 32-bit words are equal exactly when they are); the
  masked copy at (b, i, j) is the product's entry when i = j and zero otherwise.  Also here: a sum over a rank-3 or rank-1
  index set as the iterated sum over the coordinates, and the sum over the indices a reduction over the two matrix axes
  sends to batch entry b as the double sum over the matrix coordinates.
-/
import proofs.«161164_j37520834298330_2_alg».proof.Proof.RefTerm
import Idealize.ShloMosaic.Lib.ValueIdx
import Idealize.ShloMosaic.PureOps.Ideal.Laws

noncomputable section

open scoped BigOperators

namespace Cert.ReferenceIdeal.RefValue

open Idealize.ShloMosaic Idealize.ShloMosaic.ValueIdx Cert.ReferenceIdeal Cert.ReferenceIdeal.Facts₀

/-! ## Sums over index sets, by coordinates -/

/-- A sum over a rank-3 index set is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  let e : (⟨3, ![n0, n1, n2]⟩ : Shape).Idx ≃ Fin n0 × Fin n1 × Fin n2 :=
    { toFun := fun i => (i 0, i 1, i 2)
      invFun := fun p => ix3 p.1 p.2.1 p.2.2
      left_inv := fun i => (eq_ix3 i).symm
      right_inv := fun _ => rfl }
  rw [← Equiv.sum_comp e.symm f, Fintype.sum_prod_type]
  refine Finset.sum_congr rfl fun a _ => ?_
  rw [Fintype.sum_prod_type]
  rfl

/-- A sum over a rank-1 index set is the sum over the coordinate. -/
theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0
      invFun := fun a => ix1 a
      left_inv := fun i => (eq_ix1 i).symm
      right_inv := fun _ => rfl }
  rw [← Equiv.sum_comp e.symm f]
  rfl

variable [Facts]

/-! ## The batched product at an index -/

/-- m[b,i,j] = Σ_k x[b,i,k] · x[b,j,k]. -/
theorem gram_apply (x : FVec Ideal S64x1024x1024 .f32) (b : Fin 64) (i j : Fin 1024) :
    gram (F := Ideal) x (ix3 b i j) = ∑ k : Fin 1024, x (ix3 b i k) * x (ix3 b j k) := by
  show FloatOps.dotGeneral dot_S64x1024x1024_S64x1024x1024_S64x1024x1024_2_2_1_1_0_0 none _ x x (ix3 b i j) = _
  rw [Ideal.dotGeneral_apply,
    ← Equiv.sum_comp (contrEquiv1 dot_S64x1024x1024_S64x1024x1024_S64x1024x1024_2_2_1_1_0_0 1024 rfl rfl).symm]
  refine Finset.sum_congr rfl fun c _ => ?_
  have c3 := contrEquiv1_symm_val dot_S64x1024x1024_S64x1024x1024_S64x1024x1024_2_2_1_1_0_0 1024 rfl rfl c
  have l3 : dot_S64x1024x1024_S64x1024x1024_S64x1024x1024_2_2_1_1_0_0.lhsIdx (ix3 b i j)
      ((contrEquiv1 _ 1024 rfl rfl).symm c) = ix3 b i c := by
    funext ax; apply Fin.ext
    match ax with
    | ⟨0, _⟩ => simp [DotDims.lhsIdx, dot_S64x1024x1024_S64x1024x1024_S64x1024x1024_2_2_1_1_0_0]; rfl
    | ⟨1, _⟩ => simp [DotDims.lhsIdx, dot_S64x1024x1024_S64x1024x1024_S64x1024x1024_2_2_1_1_0_0]; rfl
    | ⟨2, _⟩ => simp [DotDims.lhsIdx, dot_S64x1024x1024_S64x1024x1024_S64x1024x1024_2_2_1_1_0_0]; exact c3
  have r3 : dot_S64x1024x1024_S64x1024x1024_S64x1024x1024_2_2_1_1_0_0.rhsIdx (ix3 b i j)
      ((contrEquiv1 _ 1024 rfl rfl).symm c) = ix3 b j c := by
    funext ax; apply Fin.ext
    match ax with
    | ⟨0, _⟩ => simp [DotDims.rhsIdx, dot_S64x1024x1024_S64x1024x1024_S64x1024x1024_2_2_1_1_0_0]; rfl
    | ⟨1, _⟩ => simp [DotDims.rhsIdx, dot_S64x1024x1024_S64x1024x1024_S64x1024x1024_2_2_1_1_0_0]; rfl
    | ⟨2, _⟩ => simp [DotDims.rhsIdx, dot_S64x1024x1024_S64x1024x1024_S64x1024x1024_2_2_1_1_0_0]; exact c3
  rw [l3, r3]

/-! ## The diagonal mask at an index -/

/-- The mask at (i, j) compares the word of i (plus the zero word) with the word of j. -/
theorem diagMask_apply (i j : Fin 1024) :
    diagMask (ix2 i j) = IntOp.cmpi .eq (IntOp.addi (BitVec.ofNat 32 i.val) 0#32) (BitVec.ofNat 32 j.val) := rfl

/-- Two coordinates below 1024 have equal 32-bit words exactly when they are equal: the comparison's bit is 1 iff i = j. -/
theorem cmpi_diag_iff (i j : Fin 1024) :
    IntOp.cmpi .eq (IntOp.addi (BitVec.ofNat 32 i.val) 0#32) (BitVec.ofNat 32 j.val) = (1 : BitVec 1) ↔ i = j := by
  show BitVec.ofBool (BitVec.ofNat 32 i.val + 0#32 == BitVec.ofNat 32 j.val) = (1 : BitVec 1) ↔ i = j
  rw [BitVec.add_zero]
  have key : ∀ c : Bool, BitVec.ofBool c = (1 : BitVec 1) ↔ c = true := by decide
  rw [key]
  have hi := i.isLt
  have hj := j.isLt
  constructor
  · intro h2
    have h3 := congrArg BitVec.toNat (eq_of_beq h2)
    rw [BitVec.toNat_ofNat, BitVec.toNat_ofNat, Nat.mod_eq_of_lt (by omega), Nat.mod_eq_of_lt (by omega)] at h3
    exact Fin.ext h3
  · rintro rfl
    exact beq_self_eq_true _

/-- The mask spread over the batch reads the mask at the two matrix coordinates. -/
theorem maskB_apply (b : Fin 64) (i j : Fin 1024) :
    broadcastInDim S64x1024x1024 ![1, 2] bcast_S1024x1024_S64x1024x1024_1_2 diagMask (ix3 b i j) = diagMask (ix2 i j) := by
  unfold broadcastInDim
  refine congrArg diagMask (funext fun a => Fin.ext ?_)
  match a with
  | ⟨0, _⟩ => rfl
  | ⟨1, _⟩ => rfl

/-! ## The masked copy at an index -/

/-- Zero off the diagonal, the product's entry on it. -/
theorem diagOnly_apply (x : FVec Ideal S64x1024x1024 .f32) (b : Fin 64) (i j : Fin 1024) :
    diagOnly (F := Ideal) x (ix3 b i j) = if i = j then gram (F := Ideal) x (ix3 b i j) else 0 := by
  unfold diagOnly
  rw [select_apply, maskB_apply, diagMask_apply]
  have hz : broadcastInDim S64x1024x1024 ![] bcast_S_S64x1024x1024 (constant (F := Ideal) S_ .f32 0x00000000#32) (ix3 b i j)
      = (0 : EReal) := Ideal.ofBits_zero_f32
  rw [hz]
  unfold Scalar.select
  by_cases hij : i = j
  · rw [if_pos ((cmpi_diag_iff i j).mpr hij), if_pos hij]
  · rw [if_neg (fun h => hij ((cmpi_diag_iff i j).mp h)), if_neg hij]

/-! ## The indices a reduction over the two matrix axes sends to one batch entry -/

/-- Dropping the two matrix coordinates of (a, r, c) leaves a. -/
theorem drop12_ix3 (a : Fin 64) (r c : Fin 1024) :
    reducesTo_S64x1024x1024_S64_d1_2.drop (ix3 a r c) = ix1 a := by
  funext d
  match d with
  | ⟨0, _⟩ => exact Fin.ext (Shape.ReducesTo.drop_apply_val_of_eq reducesTo_S64x1024x1024_S64_d1_2 (ix3 a r c) 0 0)

/-- The sum over the indices sent to batch entry b is the double sum over the matrix coordinates at b. -/
theorem sum_filter_drop12 {M : Type*} [AddCommMonoid M] (f : S64x1024x1024.Idx → M) (b : Fin 64)
    [DecidablePred fun i : S64x1024x1024.Idx => reducesTo_S64x1024x1024_S64_d1_2.drop i = ix1 b] :
    ∑ i ∈ Finset.univ.filter (fun i : S64x1024x1024.Idx => reducesTo_S64x1024x1024_S64_d1_2.drop i = ix1 b), f i
      = ∑ r : Fin 1024, ∑ c : Fin 1024, f (ix3 b r c) := by
  rw [Finset.sum_filter, sum_idx3, Finset.sum_eq_single b]
  · exact Finset.sum_congr rfl fun r _ => Finset.sum_congr rfl fun c _ => if_pos (drop12_ix3 b r c)
  · intro a _ hab
    refine Finset.sum_eq_zero fun r _ => Finset.sum_eq_zero fun c _ => if_neg ?_
    rw [drop12_ix3]
    exact fun h => hab (congrFun h 0)
  · intro h
    exact absurd (Finset.mem_univ b) h

end Cert.ReferenceIdeal.RefValue

end
-- ==== Proof.RefValue.lean ====
/-
  The reference's composed term is the common result when the array holds reals.

  With real entries every intermediate stays real: the batched product's entry at (b, i, j) is the real
  Σ_k x[b,i,k] · x[b,j,k]; the sum of all of it is the real quadruple sum; the masked copy keeps the diagonal, so a trace
  is the real Σ_i Σ_k x[b,i,k]², and the traces sum over the batch.  The difference of the two reals is the loss (the
  algebra over the reals), and both sides end with the same quotient by the same literal.
-/
import proofs.«161164_j37520834298330_2_alg».proof.Proof.RefRead
import proofs.«161164_j37520834298330_2_alg».proof.Proof.RefAlg
import proofs.«161164_j37520834298330_2_alg».proof.Proof.Spec

noncomputable section

open scoped BigOperators

namespace Cert.ReferenceIdeal.RefValue

open Idealize.ShloMosaic Idealize.ShloMosaic.ValueIdx Cert.ReferenceIdeal Cert.ReferenceIdeal.Facts₀

variable [Facts]

/-- With real entries the product's entry at (b, i, j) is the real Σ_k x[b,i,k] · x[b,j,k]. -/
theorem gram_real (x : FVec Ideal S64x1024x1024 .f32) (xr : Fin 64 → Fin 1024 → Fin 1024 → ℝ)
    (h : Cert.Ortho.IsReal x xr) (b : Fin 64) (i j : Fin 1024) :
    gram (F := Ideal) x (ix3 b i j) = ((∑ k : Fin 1024, xr b i k * xr b j k : ℝ) : EReal) := by
  rw [gram_apply, coe_sum]
  refine Finset.sum_congr rfl fun k _ => ?_
  rw [h b i k, h b j k, EReal.coe_mul]

/-- Every entry of the product summed: the real quadruple sum. -/
theorem gramSum_real (x : FVec Ideal S64x1024x1024 .f32) (xr : Fin 64 → Fin 1024 → Fin 1024 → ℝ)
    (h : Cert.Ortho.IsReal x xr) :
    gramSum (F := Ideal) x ix0
      = ((∑ b : Fin 64, ∑ i : Fin 1024, ∑ j : Fin 1024, ∑ k : Fin 1024, xr b i k * xr b j k : ℝ) : EReal) := by
  unfold gramSum Host.reduceAdd
  rw [Ideal.hostReduceAdd_def, Ideal.hostReduceAdd_total _ (fun b => b.elim0), constant_apply, Ideal.ofBits_zero_f32,
    zero_add, sum_idx3, coe_sum]
  refine Finset.sum_congr rfl fun b _ => ?_
  rw [coe_sum]
  refine Finset.sum_congr rfl fun i _ => ?_
  rw [coe_sum]
  exact Finset.sum_congr rfl fun j _ => gram_real x xr h b i j

/-- The trace of batch entry b: the real sum of squares. -/
theorem traces_real (x : FVec Ideal S64x1024x1024 .f32) (xr : Fin 64 → Fin 1024 → Fin 1024 → ℝ)
    (h : Cert.Ortho.IsReal x xr) (b : Fin 64) :
    traces (F := Ideal) x (ix1 b) = ((∑ r : Fin 1024, ∑ k : Fin 1024, xr b r k * xr b r k : ℝ) : EReal) := by
  unfold traces Host.reduceAdd
  rw [Ideal.hostReduceAdd_def]
  unfold Ideal.hostReduceAdd
  rw [constant_apply, Ideal.ofBits_zero_f32, zero_add, sum_filter_drop12, coe_sum]
  refine Finset.sum_congr rfl fun r _ => ?_
  calc ∑ c : Fin 1024, diagOnly (F := Ideal) x (ix3 b r c)
      = ∑ c : Fin 1024, if r = c then gram (F := Ideal) x (ix3 b r c) else 0 :=
        Finset.sum_congr rfl fun c _ => diagOnly_apply x b r c
    _ = gram (F := Ideal) x (ix3 b r r) := by rw [Finset.sum_ite_eq, if_pos (Finset.mem_univ r)]
    _ = _ := gram_real x xr h b r r

/-- The traces summed over the batch. -/
theorem traceSum_real (x : FVec Ideal S64x1024x1024 .f32) (xr : Fin 64 → Fin 1024 → Fin 1024 → ℝ)
    (h : Cert.Ortho.IsReal x xr) :
    traceSum (F := Ideal) x ix0
      = ((∑ b : Fin 64, ∑ r : Fin 1024, ∑ k : Fin 1024, xr b r k * xr b r k : ℝ) : EReal) := by
  unfold traceSum Host.reduceAdd
  rw [Ideal.hostReduceAdd_def, Ideal.hostReduceAdd_total _ (fun b => b.elim0), constant_apply, Ideal.ofBits_zero_f32,
    zero_add, sum_idx1, coe_sum]
  exact Finset.sum_congr rfl fun b _ => traces_real x xr h b

/-- The reference's composed term is the common result. -/
theorem refTerm_eq (x : FVec Ideal S64x1024x1024 .f32)
    (xr : Fin 64 → Fin 1024 → Fin 1024 → ℝ) (h : Cert.Ortho.IsReal x xr) :
    refTerm (F := Ideal) x = Cert.Ortho.result xr := by
  have hnum : subf (gramSum (F := Ideal) x) (traceSum (F := Ideal) x)
      = fun _ => ((Cert.Ortho.loss xr : ℝ) : EReal) := by
    funext j
    rw [eq_ix0 j, subf_apply, gramSum_real x xr h, traceSum_real x xr h, ← EReal.coe_sub, offdiag_alg]
    rfl
  unfold refTerm Cert.Ortho.result
  rw [hnum]

end Cert.ReferenceIdeal.RefValue

end
-- ==== Proof.Finite.lean ====
/-
  From the precondition to real entries.

  The precondition takes the absolute value of every entry, compares it (ordered, strictly below) with the
  pattern 0x7F800000, which denotes +∞, and reduces the comparison bits over all three axes by "and" from the bit 1.
  When the result is the bit 1, every comparison bit is 1: every entry x satisfies max x (−x) < +∞ in the extended
  reals, which excludes x = +∞ and x = −∞, so x is (the image of) a real number.  The real witnesses are chosen
  entry by entry.
-/
import proofs.«161164_j37520834298330_2_alg».proof.Proof.Spec
import proofs.«161164_j37520834298330_2_alg».proof.Pre_finite_inputs
import Idealize.ShloMosaic.Lib.ReduceAll

noncomputable section

namespace Cert.Ortho

open Idealize.ShloMosaic Idealize.ShloMosaic.ValueIdx

/-- The scalar shape has exactly one index. -/
instance : Subsingleton Cert.Pre_finite_inputs.S_.Idx := ⟨fun a b => funext fun d => d.elim0⟩

/-- The pattern 0x7F800000 (sign 0, exponent all ones, fraction 0) denotes +∞. -/
theorem ofBits_posInf : Ideal.ofBits .f32 0x7F800000#32 = (⊤ : EReal) := by
  simp [Ideal.ofBits, Ideal.ieee]

/-- An extended real whose absolute value max v (−v) lies strictly below +∞ is a real number. -/
theorem real_of_abs_lt_top (v : EReal) (h : max v (-v) < ⊤) : ∃ r : ℝ, v = (r : EReal) := by
  induction v using EReal.rec with
  | bot => exact absurd h (by simp)
  | coe r => exact ⟨r, rfl⟩
  | top => exact absurd h (by simp)

/-- The comparison bit of "ordered, strictly below" is 1 exactly when the strict inequality holds. -/
theorem cmp_olt_eq_one (a b : EReal) (h : Ideal.cmp .olt a b = 1#1) : a < b := by
  unfold Ideal.cmp at h
  by_contra hn
  simp [hn] at h

/-- Under the precondition every entry of the argument array is a real number. -/
theorem isReal_of_pre [Cert.Pre_finite_inputs.Facts] (x : FVec Ideal ⟨3, ![64, 1024, 1024]⟩ .f32)
    (h : Cert.Pre_finite_inputs.fn (F := Ideal) x = fun _ => 1#1) :
    ∃ xr : Fin 64 → Fin 1024 → Fin 1024 → ℝ, IsReal x xr := by
  have h0 := congrFun h ix0
  dsimp only [Cert.Pre_finite_inputs.fn] at h0
  have hall := Host.reduce_andi_all _ _ _ _ _ h0
  have hreal : ∀ (b : Fin 64) (r k : Fin 1024), ∃ v : ℝ, x (ix3 b r k) = (v : EReal) := by
    intro b r k
    have hb := hall (ix3 b r k)
    have hlt : max (x (ix3 b r k)) (-(x (ix3 b r k))) < Ideal.ofBits .f32 0x7F800000#32 :=
      cmp_olt_eq_one _ _ hb
    rw [ofBits_posInf] at hlt
    exact real_of_abs_lt_top _ hlt
  choose xr hxr using hreal
  exact ⟨xr, hxr⟩

end Cert.Ortho

end
-- ==== Proof.lean ====
/-
  The certificate's five claims.

  Both idealized programs compute, from an array x of 64 square matrices with real entries, the off-diagonal mass of
  the products x[b] · x[b]ᵀ divided by the batch size: the reference forms the products, sums all their entries and
  subtracts the traces; the kernel never forms them and instead sums, per batch entry, the squared column sums minus
  the squares of all entries, because Σ_{i,j} (x xᵀ)[i,j] = Σ_k (Σ_i x[i,k])² and trace (x xᵀ) = Σ_{i,k} x[i,k]².
  The identity moves factors across sums, which on the extended reals needs the entries finite: the precondition gives
  that, everything is then a finite sum of reals, and both results are the same quotient of the same real number by the
  same literal 64.0.  The frames are the generated runs; the ideal pass rewrote nothing, so "preserves" is trivial.
-/
import proofs.«161164_j37520834298330_2_alg».proof.Defs
import proofs.«161164_j37520834298330_2_alg».proof.Proof.Gen.Kernel
import proofs.«161164_j37520834298330_2_alg».proof.Proof.Gen.Kernel.Frame
import proofs.«161164_j37520834298330_2_alg».proof.Proof.Gen.KernelIdeal
import proofs.«161164_j37520834298330_2_alg».proof.Proof.Gen.KernelIdeal.Frame
import proofs.«161164_j37520834298330_2_alg».proof.Proof.Gen.ReferenceIdeal
import proofs.«161164_j37520834298330_2_alg».proof.Proof.Gen.Pre_finite_inputs
import proofs.«161164_j37520834298330_2_alg».proof.Proof.KValue
import proofs.«161164_j37520834298330_2_alg».proof.Proof.RefRun
import proofs.«161164_j37520834298330_2_alg».proof.Proof.RefValue
import proofs.«161164_j37520834298330_2_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Under the precondition the argument holds reals; the kernel's run ends at the common result of those reals, and so
    does the reference's run from an argument that agrees. -/
theorem algebraic : Cert.algebraic_KernelIdeal_ReferenceIdeal := by
  intro m ρ m' ρ' hpre hagree
  choose xr hxr using fun c => Cert.Ortho.isReal_of_pre _ (hpre c)
  refine ⟨fun c => Cert.Ortho.result (xr c), ?_, ?_⟩
  · exact (θ_run Cert.KernelIdeal.defs _ _).mono
      (fun _ h c => ⟨(h c).1.trans (Cert.KernelIdeal.KValue.kernelTerm_eq m c (xr c) (hxr c)), (h c).2⟩)
      (Cert.KernelIdeal.KValue.run (F := Ideal) m ρ)
  · refine (θ_run Cert.ReferenceIdeal.defs _ _).mono (fun _ h c => ⟨(h c).1.trans ?_, (h c).2⟩)
      (Cert.ReferenceIdeal.RefValue.run (F := Ideal) m' ρ')
    rw [hagree c]
    exact Cert.ReferenceIdeal.RefValue.refTerm_eq _ (xr c) (hxr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
